-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S8192x4096 .f32) (main_arg1 : FVec F S4096x4096 .f32) (main_arg2 : FVec F S4096x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S1024x256 : Shape := ⟨2, ![1024, 256]⟩
abbrev S2048x256 : Shape := ⟨2, ![2048, 256]⟩
abbrev S1024x2048 : Shape := ⟨2, ![1024, 2048]⟩

abbrev nBuf : Space → Nat
  | .hbm => 7
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S8192x4096, .bf16⟩
  | .hbm, ⟨4, _⟩ => ⟨S4096x4096, .f32⟩
  | .hbm, ⟨5, _⟩ => ⟨S4096x4096, .bf16⟩
  | .hbm, ⟨6, _⟩ => ⟨S8192x4096, .f32⟩
  | .local _ .vmem, ⟨0, _⟩ => ⟨S1024x256, .bf16⟩
  | .local _ .vmem, ⟨1, _⟩ => ⟨S1024x256, .bf16⟩
  | .local _ .vmem, ⟨2, _⟩ => ⟨S2048x256, .bf16⟩
  | .local _ .vmem, ⟨3, _⟩ => ⟨S2048x256, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 16], ![false, false, false]⟩

def k0_cond2 (i : grid0.Coords) : BitVec 1 :=
  let arg2 : BitVec 32 := BitVec.ofNat 32 (i 2).val
  let c15_i32 : BitVec 32 := 15#32
  let v13 : BitVec 1 := Scalar.cmpi .eq arg2 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  dot_S1024x256_S2048x256_S1024x2048_1_1_0_0_n_n_wf : DotDims.WF S1024x256 S2048x256 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x4096.size a
  hwx0_0 : ∀ i : grid0.Coords, EltTy.bits .bf16 = 32 ∨ (Rect.block (s := S8192x4096) S1024x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S4096x4096.size a
  hwx0_1 : ∀ i : grid0.Coords, EltTy.bits .bf16 = 32 ∨ (Rect.block (s := S4096x4096) S2048x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S8192x4096.size a
  hwx0_2 : ∀ i : grid0.Coords, EltTy.bits .f32 = 32 ∨ (Rect.block (s := S8192x4096) S1024x2048.size (cc0_transform_2 i) (hinb0_2 i)).WholeWords (EltTy.packing .f32)

variable [Facts₀]

def dot_S1024x256_S2048x256_S1024x2048_1_1_0_0_n_n : DotDims S1024x256 S2048x256 S1024x2048 where
  lhsContracting := [1]
  rhsContracting := [1]
  lhsNonContracting := [0]
  rhsNonContracting := [0]
  lhsBatch := []
  rhsBatch := []
  wf := dot_S1024x256_S2048x256_S1024x2048_1_1_0_0_n_n_wf

abbrev win0_0 : Pipeline.Window sig grid0 :=
  Pipeline.Window.ofSpec (Memref.whole main_v0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.LibTileSum.lean ====
/-
  A sum over `K * T` consecutive indices cut into `K` tiles of `T` consecutive indices each.

  The index `i < K * T` is written `i = k * T + j` with `k < K` the tile and `j < T` the position inside the tile; the
  map `(k, j) ↦ k * T + j` is a bijection of `Fin K × Fin T` with `Fin (K * T)`, so the sum of `f` over all indices is
  the sum over the tiles of each tile's sum (`sum_tiles`). A running total that starts at `0` and adds one tile's sum
  at each of `K` steps therefore ends at the whole sum (`sum_tiles_fold`). Both hold in any additive commutative monoid.
-/
import Mathlib.Data.Fintype.BigOperators
import Mathlib.Logic.Equiv.Fin.Basic
import Mathlib.Algebra.BigOperators.Fin

open scoped BigOperators

namespace Cert.Lib

/-- Position `j` of tile `k` is a valid index: `k * T + j < (k + 1) * T ≤ K * T`. -/
theorem tile_lt {K T k : ℕ} (hk : k < K) (j : Fin T) : k * T + j.val < K * T :=
  calc k * T + j.val < k * T + T := Nat.add_lt_add_left j.isLt _
    _ = (k + 1) * T := (Nat.succ_mul k T).symm
    _ ≤ K * T := Nat.mul_le_mul_right T hk

/-- The sum over `K * T` indices is the sum over the `K` tiles of the sum over each tile's `T` positions: re-index the
    right side along the bijection `(k, j) ↦ k * T + j` and split the sum over the product into the double sum. -/
theorem sum_tiles {M : Type*} [AddCommMonoid M] (K T : ℕ) (f : Fin (K * T) → M) :
    ∑ k : Fin K, ∑ j : Fin T, f ⟨k.val * T + j.val, tile_lt k.isLt j⟩ = ∑ i : Fin (K * T), f i := by
  refine Eq.trans ?_ (Equiv.sum_comp (finProdFinEquiv (m := K) (n := T)) f)
  rw [Fintype.sum_prod_type]
  refine Finset.sum_congr rfl fun k _ => Finset.sum_congr rfl fun j _ => congrArg f (Fin.ext ?_)
  show k.val * T + j.val = j.val + T * k.val
  rw [Nat.mul_comm, Nat.add_comm]

/-- The running form: a total `acc` that starts at `0` and at step `k < K` adds the sum of tile `k` is, after `K` steps,
    the sum over all `K * T` indices. After `n ≤ K` steps the total is the sum of the first `n` tiles (induction on
    `n`); at `n = K` that is the double sum of `sum_tiles`. -/
theorem sum_tiles_fold {M : Type*} [AddCommMonoid M] (K T : ℕ) (f : Fin (K * T) → M) (acc : ℕ → M) (h0 : acc 0 = 0)
    (hs : ∀ k (hk : k < K), acc (k + 1) = acc k + ∑ j : Fin T, f ⟨k * T + j.val, tile_lt hk j⟩) :
    acc K = ∑ i : Fin (K * T), f i := by
  have key : ∀ n, n ≤ K → acc n = ∑ k ∈ Finset.range n,
      (if hk : k < K then ∑ j : Fin T, f ⟨k * T + j.val, tile_lt hk j⟩ else 0) := by
    intro n
    induction n with
    | zero => intro _; rw [Finset.range_zero, Finset.sum_empty]; exact h0
    | succ n ih =>
      intro hn
      have hk : n < K := hn
      rw [Finset.sum_range_succ, ← ih (Nat.le_of_lt hk), dif_pos hk, hs n hk]
  rw [key K (Nat.le_refl K), ← sum_tiles K T f, Finset.sum_fin_eq_sum_range]

/-- `sum_tiles` at 16 tiles of 1024, stated over `Fin 16384`. -/
theorem sum_tiles_16_1024 {M : Type*} [AddCommMonoid M] (f : Fin 16384 → M) :
    ∑ k : Fin 16, ∑ j : Fin 1024, f ⟨k.val * 1024 + j.val, by omega⟩ = ∑ i : Fin 16384, f i :=
  sum_tiles 16 1024 f

/-- `sum_tiles_fold` at 16 tiles of 1024, stated over `Fin 16384`. -/
theorem sum_tiles_fold_16_1024 {M : Type*} [AddCommMonoid M] (f : Fin 16384 → M) (acc : ℕ → M) (h0 : acc 0 = 0)
    (hs : ∀ k (hk : k < 16), acc (k + 1) = acc k + ∑ j : Fin 1024, f ⟨k * 1024 + j.val, by omega⟩) :
    acc 16 = ∑ i : Fin 16384, f i :=
  sum_tiles_fold 16 1024 f acc h0 hs

end Cert.Lib
-- ==== Proof.MaskedLinear.lean ====
/-
  The masked linear layer as ONE function of its three argument arrays, over the extended reals.

  For an activation array `x` of shape [8192, 4096], a weight array `w` and a 0/1 mask `mk`, both of shape
  [4096, 4096] (rows are output features, columns input features), the layer's output at batch row `b` and output
  feature `o` is

      out[b, o] = Σ_{i < 4096} x[b, i] · (w[o, i] · mk[o, i]).

  The sum may be taken all at once, or tile by tile: cutting the 4096 input features into 16 consecutive tiles of 256
  and adding the tiles' partial sums gives the same extended real, because addition of extended reals is associative
  and commutative (no finiteness is needed: only the grouping of one sum changes, never a product or a factor).
  To keep the tile arithmetic in the naturals an array is extended by zero to every pair of naturals (`tot`); inside
  the array's bounds the extension reads the array.
-/
import Idealize.ShloMosaic.PureOps.Ideal
import Idealize.ShloMosaic.Lib.ValueIdx
import proofs.«156600_j44341242364406_2_alg».proof.Proof.LibTileSum

noncomputable section

open scoped BigOperators
open Idealize.ShloMosaic Idealize.ShloMosaic.ValueIdx

namespace Cert.MaskedLinear

/-- The activations' and the output's shape: batch rows × features. -/
abbrev SAct : Shape := ⟨2, ![8192, 4096]⟩
/-- The weight's and the mask's shape: output features × input features. -/
abbrev SWgt : Shape := ⟨2, ![4096, 4096]⟩

/-- The masked weight, entry by entry. -/
def masked (w mk : SWgt.Idx → EReal) : SWgt.Idx → EReal := fun j => w j * mk j

/-- The layer: `out[b, o] = Σ_i x[b, i] · (w[o, i] · mk[o, i])`. -/
def maskedLinear (x : SAct.Idx → EReal) (w mk : SWgt.Idx → EReal) : SAct.Idx → EReal :=
  fun i => ∑ k : Fin 4096, x (ix2 (n0 := 8192) (i 0) k) * masked w mk (ix2 (n0 := 4096) (i 1) k)

/-- An [R, C] array extended by zero to every pair of naturals. -/
def tot {R C : ℕ} (a : (⟨2, ![R, C]⟩ : Shape).Idx → EReal) (r i : ℕ) : EReal :=
  if h : r < R ∧ i < C then a (ix2 (⟨r, h.1⟩ : Fin R) (⟨i, h.2⟩ : Fin C)) else 0

/-- Inside the bounds the extension reads the array. -/
theorem tot_of_lt {R C : ℕ} (a : (⟨2, ![R, C]⟩ : Shape).Idx → EReal) {r i : ℕ} (hr : r < R) (hi : i < C) :
    tot a r i = a (ix2 (⟨r, hr⟩ : Fin R) (⟨i, hi⟩ : Fin C)) := dif_pos ⟨hr, hi⟩

/-- The layer at `(b, o)` as a sum of the extended arrays' products over the 4096 input features. -/
theorem maskedLinear_apply (x : SAct.Idx → EReal) (w mk : SWgt.Idx → EReal) (b : Fin 8192) (o : Fin 4096) :
    maskedLinear x w mk (ix2 b o) = ∑ k : Fin 4096, tot x b.val k.val * tot (masked w mk) o.val k.val := by
  unfold maskedLinear
  refine Finset.sum_congr rfl fun k _ => ?_
  rw [tot_of_lt x b.isLt k.isLt, tot_of_lt (masked w mk) o.isLt k.isLt]

/-- A sum over the 4096 naturals below 4096 is the sum over 16 tiles of the 256 positions of each tile. -/
theorem sum_16_tiles_of_256 {M : Type*} [AddCommMonoid M] (f : ℕ → M) :
    ∑ s ∈ Finset.range 16, ∑ j : Fin 256, f (s * 256 + j.val) = ∑ k : Fin 4096, f k.val := by
  rw [Finset.sum_range (fun s => ∑ j : Fin 256, f (s * 256 + j.val))]
  exact Cert.Lib.sum_tiles 16 256 (fun k => f k.val)

/-- THE LAW that joins the two programs: the 16 tiles' partial dot products of row `b` of `x` with row `o` of the
    masked weight add up to the layer's output at `(b, o)`. -/
theorem tiles_eq_maskedLinear (x : SAct.Idx → EReal) (w mk : SWgt.Idx → EReal) (b : Fin 8192) (o : Fin 4096) :
    ∑ s ∈ Finset.range 16, ∑ j : Fin 256, tot x b.val (s * 256 + j.val) * tot (masked w mk) o.val (s * 256 + j.val)
      = maskedLinear x w mk (ix2 b o) := by
  rw [maskedLinear_apply]
  exact sum_16_tiles_of_256 (fun n => tot x b.val n * tot (masked w mk) o.val n)

end Cert.MaskedLinear

end
-- ==== Proof.ReferenceValue.lean ====
/-
  The reference program's result, at the ideal values, is the masked linear layer.

  The reference multiplies the weight by the mask entry by entry and contracts the activations with the product over
  the input-feature axis of both: its result at `(b, o)` is `Σ_i x[b, i] · (w[o, i] · mk[o, i])`, the layer's defining
  sum term for term.
-/
import proofs.«156600_j44341242364406_2_alg».proof.Proof.Gen.ReferenceIdeal.Read
import proofs.«156600_j44341242364406_2_alg».proof.Proof.MaskedLinear

noncomputable section

open scoped BigOperators

namespace Cert.ReferenceIdeal.RefValue

open Cert.ReferenceIdeal Cert.ReferenceIdeal.Gen Cert.ReferenceIdeal.Read Cert.MaskedLinear
open Idealize.ShloMosaic Idealize.ShloMosaic.ValueIdx

/-- The contraction reads the activations at `(b, k)`, -/
theorem lidx_eq (i : S8192x4096.Idx) (k : Fin 4096) : lidx_main_v1 i k = ix2 (n0 := 8192) (i 0) k :=
  funext fun a => Fin.ext (by match a with | ⟨0, _⟩ => rfl | ⟨1, _⟩ => rfl)

/-- and the masked weight at `(o, k)`. -/
theorem ridx_eq (i : S8192x4096.Idx) (k : Fin 4096) : ridx_main_v1 i k = ix2 (n0 := 4096) (i 1) k :=
  funext fun a => Fin.ext (by match a with | ⟨0, _⟩ => rfl | ⟨1, _⟩ => rfl)

/-- The reference's result term is the layer's function of the three arrays. -/
theorem reference_eq (x0 : (⟨S8192x4096, .f32⟩ : BufTy).Contents (Elt Ideal)) (x1 x2 : (⟨S4096x4096, .f32⟩ : BufTy).Contents (Elt Ideal)) :
    val_main_v1 (F := Ideal) x0 x1 x2 = maskedLinear x0 x1 x2 := by
  funext i
  rw [val_main_v1_apply]
  unfold maskedLinear masked
  refine Finset.sum_congr rfl fun k _ => ?_
  rw [val_main_v0_apply, lidx_eq, ridx_eq]
  rfl

end Cert.ReferenceIdeal.RefValue

end
-- ==== Proof.CasePieces.lean ====
/-
  What each control case of the kernel body leaves behind, as values.

  The body runs in one of three cases, by the position `k` of the grid point along the reduction axis:
    * `k = 0`: the accumulator is reset to the zero block, then rewritten as the step of the zero block;
    * `0 < k < 15`: the accumulator is rewritten as the step of what the point before left in it;
    * `k = 15`: the same, and the output block is then stored with what the accumulator now holds.
  Every store covers its whole buffer and every load reads a whole buffer, so a buffer ends holding exactly the
  payload of its last store, and a load after a covering store reads that store's payload. Here "the step" is the
  body's one arithmetic payload (accumulator plus the product of the two input blocks) and "the zero block" its reset
  payload; nothing is said yet about their values, so the statements hold for any float values.
-/
import proofs.«156600_j44341242364406_2_alg».proof.Proof.Gen.KernelIdeal.Frame
import Idealize.ShloMosaic.Lib.Pipeline.Value
import Idealize.ShloMosaic.Lib.Tactic

noncomputable section

namespace Cert.KernelIdeal.CasePieces

open Cert.KernelIdeal Cert.KernelIdeal.Gen Idealize.ShloMosaic Idealize.ShloMosaic.TcCoe Idealize.SL.Sem Idealize.ShloMosaic.Tactic

variable {F : FTy → Type} [FloatOps F]

/-- The offsets of every access in the body: the origin. -/
theorem origin : (![0, 0] : Fin 2 → Nat) = fun _ => 0 := funext fun a => by fin_cases a <;> rfl

/-- First point of a reduction: the accumulator ends at the step of the zero block. -/
theorem scratch_first (c : Dev nD) (i : grid0.Coords) (a3 : Memref sig .tc .vmem S1024x256 .bf16) (h3 : a3.IsWhole) (a4 : Memref sig .tc .vmem S2048x256 .bf16) (h4 : a4.IsWhole) (a5 : Memref sig .tc .vmem S1024x2048 .f32) (h5 : a5.IsWhole) (a6 : Memref sig .tc .vmem S1024x2048 .f32) (h6 : a6.IsWhole) (hc0 : cond0_0 i) (hc1 : ¬cond0_1 i)
    (x0 : Vec F S1024x256 .bf16) (x1 : Vec F S2048x256 .bf16) :
    sout0_A_0 c i a3 h3 a4 h4 a5 h5 a6 h6 hc0 hc1 x0 x1 = k0_pay2 x0 x1 k0_pay1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x2048) origin, View.readCov_unit_zero (S := S1024x2048) _ origin]
  simp only [View.readAt_eq_ld, h3.read_unread, h4.read_unread, View.ld_unit_zero (S := S1024x256) origin,
    View.ld_unit_zero (S := S2048x256) origin]

/-- A middle point: the accumulator ends at the step of what it held. -/
theorem scratch_middle (c : Dev nD) (i : grid0.Coords) (a3 : Memref sig .tc .vmem S1024x256 .bf16) (h3 : a3.IsWhole) (a4 : Memref sig .tc .vmem S2048x256 .bf16) (h4 : a4.IsWhole) (a5 : Memref sig .tc .vmem S1024x2048 .f32) (h5 : a5.IsWhole) (a6 : Memref sig .tc .vmem S1024x2048 .f32) (h6 : a6.IsWhole) (hc0 : ¬cond0_0 i) (hc1 : ¬cond0_1 i)
    (x0 : Vec F S1024x256 .bf16) (x1 : Vec F S2048x256 .bf16) (xs0 : Vec F S1024x2048 .f32) :
    sout0_B_0 c i a3 h3 a4 h4 a5 h5 a6 h6 hc0 hc1 x0 x1 xs0 = k0_pay2 x0 x1 xs0 := by
  unfold sout0_B_0
  rw [View.read_writes_eq_canon _ _ _ (scover0_B_0 c i a3 h3 a4 h4 a5 h5 a6 h6 hc0 hc1 x0 x1 xs0)]
  unfold kernelRun0_B
  dsimp only
  rw [View.canon_unit_zero origin]
  simp only [View.readAt_eq_ld, h3.read_unread, h4.read_unread, h6.read_unread, View.ld_unit_zero (S := S1024x256) origin,
    View.ld_unit_zero (S := S2048x256) origin, View.ld_unit_zero (S := S1024x2048) origin]

/-- Last point of a reduction: the accumulator ends at the step of what it held, -/
theorem scratch_last (c : Dev nD) (i : grid0.Coords) (a3 : Memref sig .tc .vmem S1024x256 .bf16) (h3 : a3.IsWhole) (a4 : Memref sig .tc .vmem S2048x256 .bf16) (h4 : a4.IsWhole) (a5 : Memref sig .tc .vmem S1024x2048 .f32) (h5 : a5.IsWhole) (a6 : Memref sig .tc .vmem S1024x2048 .f32) (h6 : a6.IsWhole) (hc0 : ¬cond0_0 i) (hc1 : cond0_1 i)
    (x0 : Vec F S1024x256 .bf16) (x1 : Vec F S2048x256 .bf16) (xs0 : Vec F S1024x2048 .f32) :
    sout0_C_0 c i a3 h3 a4 h4 a5 h5 a6 h6 hc0 hc1 x0 x1 xs0 = k0_pay2 x0 x1 xs0 := by
  unfold sout0_C_0
  rw [View.read_writes_eq_canon _ _ _ (scover0_C_0 c i a3 h3 a4 h4 a5 h5 a6 h6 hc0 hc1 x0 x1 xs0)]
  unfold kernelRun0_C
  dsimp only
  sl_unfold_words
  rw [View.canon_unit_zero origin]
  simp only [View.readAt_eq_ld, h3.read_unread, h4.read_unread, h6.read_unread, View.ld_unit_zero (S := S1024x256) origin,
    View.ld_unit_zero (S := S2048x256) origin, View.ld_unit_zero (S := S1024x2048) origin]

/-- and the output block is stored with the same value: the accumulator read back after its store. -/
theorem out_last (c : Dev nD) (i : grid0.Coords) (a3 : Memref sig .tc .vmem S1024x256 .bf16) (h3 : a3.IsWhole) (a4 : Memref sig .tc .vmem S2048x256 .bf16) (h4 : a4.IsWhole) (a5 : Memref sig .tc .vmem S1024x2048 .f32) (h5 : a5.IsWhole) (a6 : Memref sig .tc .vmem S1024x2048 .f32) (h6 : a6.IsWhole) (hc0 : ¬cond0_0 i) (hc1 : cond0_1 i)
    (x0 : Vec F S1024x256 .bf16) (x1 : Vec F S2048x256 .bf16) (xs0 : Vec F S1024x2048 .f32) :
    out0_C_2 c i a3 h3 a4 h4 a5 h5 a6 h6 hc0 hc1 x0 x1 xs0 = k0_pay2 x0 x1 xs0 := by
  unfold out0_C_2
  rw [View.read_writes_eq_canon _ _ _ (cover0_C_2 c i a3 h3 a4 h4 a5 h5 a6 h6 hc0 hc1 x0 x1 xs0)]
  unfold kernelRun0_C
  dsimp only
  sl_unfold_words
  rw [View.canon_unit_zero origin, View.readCov_unit_zero (S := S1024x2048) _ origin]
  simp only [View.readAt_eq_ld, h3.read_unread, h4.read_unread, h6.read_unread, View.ld_unit_zero (S := S1024x256) origin,
    View.ld_unit_zero (S := S2048x256) origin, View.ld_unit_zero (S := S1024x2048) origin]

end Cert.KernelIdeal.CasePieces

end
-- ==== Proof.TileStep.lean ====
/-
  One step of the kernel's accumulation, read at an index at the ideal values.

  At each grid point the body holds a [1024, 256] block `a` of the activations and a [2048, 256] block `w` of the
  masked weight, and rewrites its [1024, 2048] accumulator `acc` as `acc + a · wᵀ`: at row `p` and column `q`

      (acc + a · wᵀ)[p, q] = acc[p, q] + Σ_{k < 256} a[p, k] · w[q, k]

  (the product contracts the last axis of both blocks and starts from zero, so at the ideal values it is that plain
  sum). At the first point of a reduction the accumulator is first reset to the zero block.
-/
import proofs.«156600_j44341242364406_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.TileStep

open Cert.KernelIdeal Cert.KernelIdeal.Gen Idealize.ShloMosaic Idealize.ShloMosaic.ValueIdx

/-- The left operand's row is the output's row, -/
theorem lhs_row (j : S1024x2048.Idx) (q : dot_S1024x256_S2048x256_S1024x2048_1_1_0_0_n_n.contr.Idx) :
    (dot_S1024x256_S2048x256_S1024x2048_1_1_0_0_n_n.lhsIdx j q 0).val = (j 0).val := by
  unfold DotDims.lhsIdx
  rw [dif_neg (show ¬(0 : Fin S1024x256.rank) ∈ dot_S1024x256_S2048x256_S1024x2048_1_1_0_0_n_n.lhsBatch by decide), dif_pos (show (0 : Fin S1024x256.rank) ∈ dot_S1024x256_S2048x256_S1024x2048_1_1_0_0_n_n.lhsNonContracting by decide)]
  rfl
/-- its column the contraction index; -/
theorem lhs_col (j : S1024x2048.Idx) (q : dot_S1024x256_S2048x256_S1024x2048_1_1_0_0_n_n.contr.Idx) :
    (dot_S1024x256_S2048x256_S1024x2048_1_1_0_0_n_n.lhsIdx j q 1).val = (q ⟨0, by decide⟩).val :=
  dot_S1024x256_S2048x256_S1024x2048_1_1_0_0_n_n.lhsIdx_val_of_single rfl j q
/-- the right operand's row is the output's column, -/
theorem rhs_row (j : S1024x2048.Idx) (q : dot_S1024x256_S2048x256_S1024x2048_1_1_0_0_n_n.contr.Idx) :
    (dot_S1024x256_S2048x256_S1024x2048_1_1_0_0_n_n.rhsIdx j q 0).val = (j 1).val := by
  unfold DotDims.rhsIdx
  rw [dif_neg (show ¬(0 : Fin S2048x256.rank) ∈ dot_S1024x256_S2048x256_S1024x2048_1_1_0_0_n_n.rhsBatch by decide), dif_pos (show (0 : Fin S2048x256.rank) ∈ dot_S1024x256_S2048x256_S1024x2048_1_1_0_0_n_n.rhsNonContracting by decide)]
  rfl
/-- its column the contraction index. -/
theorem rhs_col (j : S1024x2048.Idx) (q : dot_S1024x256_S2048x256_S1024x2048_1_1_0_0_n_n.contr.Idx) :
    (dot_S1024x256_S2048x256_S1024x2048_1_1_0_0_n_n.rhsIdx j q 1).val = (q ⟨0, by decide⟩).val :=
  dot_S1024x256_S2048x256_S1024x2048_1_1_0_0_n_n.rhsIdx_val_of_single rfl j q

/-- The blocks' product into the zero block, at `(p, q)`: the dot product of row `p` of `a` with row `q` of `w`. -/
theorem tile_dot (a : FVec Ideal S1024x256 .bf16) (w : FVec Ideal S2048x256 .bf16) (p : Fin 1024) (q : Fin 2048) :
    matmul dot_S1024x256_S2048x256_S1024x2048_1_1_0_0_n_n none a w (constant (F := Ideal) S1024x2048 .f32 0x00000000#32) (ix2 p q)
      = ∑ k : Fin 256, a (ix2 p k) * w (ix2 q k) := by
  simp only [matmul]
  rw [Ideal.matmul_constant_zero_apply, ← Equiv.sum_comp (contrEquiv1 dot_S1024x256_S2048x256_S1024x2048_1_1_0_0_n_n 256 rfl rfl).symm]
  refine Finset.sum_congr rfl fun k _ => ?_
  have hk := contrEquiv1_symm_val dot_S1024x256_S2048x256_S1024x2048_1_1_0_0_n_n 256 rfl rfl k
  have el : dot_S1024x256_S2048x256_S1024x2048_1_1_0_0_n_n.lhsIdx (ix2 p q) ((contrEquiv1 dot_S1024x256_S2048x256_S1024x2048_1_1_0_0_n_n 256 rfl rfl).symm k) = ix2 p k := funext fun a => Fin.ext (by
    match a with
    | ⟨0, _⟩ => exact lhs_row _ _
    | ⟨1, _⟩ => exact (lhs_col _ _).trans hk)
  have er : dot_S1024x256_S2048x256_S1024x2048_1_1_0_0_n_n.rhsIdx (ix2 p q) ((contrEquiv1 dot_S1024x256_S2048x256_S1024x2048_1_1_0_0_n_n 256 rfl rfl).symm k) = ix2 q k := funext fun a => Fin.ext (by
    match a with
    | ⟨0, _⟩ => exact rhs_row _ _
    | ⟨1, _⟩ => exact (rhs_col _ _).trans hk)
  rw [el, er]

/-- The reset stores the zero block. -/
theorem reset_apply (j : S1024x2048.Idx) : k0_pay1 (F := Ideal) j = 0 := by
  unfold k0_pay1
  simp only [shapeCast_self]
  exact Ideal.ofBits_zero_f32

/-- The step: the accumulator plus the blocks' product, at `(p, q)`. -/
theorem step_apply (a : Vec Ideal S1024x256 .bf16) (w : Vec Ideal S2048x256 .bf16) (acc : Vec Ideal S1024x2048 .f32)
    (p : Fin 1024) (q : Fin 2048) :
    k0_pay2 (F := Ideal) a w acc (ix2 p q) = acc (ix2 p q) + ∑ k : Fin 256, a (ix2 p k) * w (ix2 q k) := by
  unfold k0_pay2
  simp only [shapeCast_self]
  exact congrArg (acc (ix2 p q) + ·) (tile_dot a w p q)

/-- The dot product of the row of `a` and the row of `w` that entry `i` of the accumulator names: its first coordinate
    the row of the activation block, its second the row of the weight block. -/
def blockDot (a : Vec Ideal S1024x256 .bf16) (w : Vec Ideal S2048x256 .bf16) (i : S1024x2048.Idx) : EReal :=
  ∑ k : Fin 256, a (ix2 (n0 := 1024) (i 0) k) * w (ix2 (n0 := 2048) (i 1) k)

/-- The step at any entry: what the accumulator held there plus the blocks' dot product for the entry. -/
theorem step_at (a : Vec Ideal S1024x256 .bf16) (w : Vec Ideal S2048x256 .bf16) (acc : Vec Ideal S1024x2048 .f32)
    (i : S1024x2048.Idx) : k0_pay2 (F := Ideal) a w acc i = acc i + blockDot a w i := by
  obtain ⟨p, q, rfl⟩ : ∃ (p : Fin 1024) (q : Fin 2048), i = ix2 p q := ⟨i 0, i 1, eq_ix2 i⟩
  exact step_apply a w acc p q

end Cert.KernelIdeal.TileStep

end
-- ==== Proof.Blocks.lean ====
/-
  The two input blocks of a grid point, read as elements of the argument arrays.

  The 256 grid points are numbered `t = 32·mi + 16·ni + k` with `mi < 8` the batch tile, `ni < 2` the output-feature
  tile and `k < 16` the input-feature tile (the innermost axis): `k = t mod 16`, and of the group `g = t / 16` of sixteen
  consecutive points `mi = g / 2` and `ni = g mod 2`. At point `t`
    * the activation block is rows `1024·mi …` and columns `256·k …` of the activations,
    * the weight block is rows `2048·ni …` and columns `256·k …` of the masked weight,
    * the output block is rows `1024·mi …` and columns `2048·ni …` of the output.
  Before the grid runs the activations are re-encoded in a narrower float format and the weight is multiplied by the
  mask and re-encoded likewise; at the ideal values a change of format is the identity, so the arrays the grid reads are
  the activations themselves and the entrywise product of weight and mask.
-/
import proofs.«156600_j44341242364406_2_alg».proof.Proof.Gen.KernelIdeal.Frame
import proofs.«156600_j44341242364406_2_alg».proof.Proof.MaskedLinear
import Idealize.ShloMosaic.Lib.Pipeline.Value
import Idealize.ShloMosaic.Lib.StableHlo.Run

noncomputable section

namespace Cert.KernelIdeal.Blocks

open Cert.KernelIdeal Cert.KernelIdeal.Gen Cert.MaskedLinear
open Idealize.ShloMosaic Idealize.ShloMosaic.TcCoe Idealize.SL.Sem Idealize.ShloMosaic.ValueIdx

variable (m : (ℓ : Loc nD τ sig) → Buf (Elt Ideal) ℓ)

/-- The grid has 256 points. -/
theorem lt_256 (t : Fin cfg0.N) : t.val < 256 := lt_of_lt_of_eq t.isLt (show cfg0.N = 256 from N_0)

/-- The three block index maps in closed form, decided over the grid. -/
theorem index_facts : ∀ t : Fin cfg0.N,
    win0_0.index t (0 : Fin 2) = t.val / 16 / 2 ∧ win0_0.index t (1 : Fin 2) = t.val % 16
    ∧ win0_1.index t (0 : Fin 2) = t.val / 16 % 2 ∧ win0_1.index t (1 : Fin 2) = t.val % 16
    ∧ win0_2.index t (0 : Fin 2) = t.val / 16 / 2 ∧ win0_2.index t (1 : Fin 2) = t.val / 16 % 2 :=
  (by decide +kernel : ∀ t : Fin grid0.N, _)

/-- The array the activation window reads is the activations. -/
theorem entry_act (c : Dev nD) (i : S8192x4096.Idx) :
    V m c main_v0 i = m ((c : Thread nD τ).loc main_arg0) i := by
  have e : (V m c main_v0 : S8192x4096.Idx → EReal)
      = truncf (F := Ideal) (s := S8192x4096) (φ := .f32) .bf16 (m ((c : Thread nD τ).loc main_arg0)) Facts₀.bitsLt_bf16_f32 := by
    dsimp only [Gen.V, Gen.hostOps0]; after_results
  rw [e]; rfl

/-- The array the weight window reads is the masked weight. -/
theorem entry_wgt (c : Dev nD) (i : S4096x4096.Idx) :
    V m c main_v2 i = masked (m ((c : Thread nD τ).loc main_arg1)) (m ((c : Thread nD τ).loc main_arg2)) i := by
  have e : (V m c main_v2 : S4096x4096.Idx → EReal)
      = truncf (F := Ideal) (s := S4096x4096) (φ := .f32) .bf16
          (mulf (F := Ideal) (s := S4096x4096) (φ := .f32) (m ((c : Thread nD τ).loc main_arg1)) (m ((c : Thread nD τ).loc main_arg2))) Facts₀.bitsLt_bf16_f32 := by
    dsimp only [Gen.V, Gen.hostOps0]; after_results
  rw [e]; rfl

/-- Element `(p, k)` of the activation block at point `t`. -/
theorem act_block (c : Dev nD) (t : Fin cfg0.N) (p : Fin 1024) (k : Fin 256) :
    (iblk m c 0 t : Vec Ideal S1024x256 .bf16) (ix2 p k)
      = tot (R := 8192) (C := 4096) (m ((c : Thread nD τ).loc main_arg0)) (t.val / 16 / 2 * 1024 + p.val) (t.val % 16 * 256 + k.val) := by
  have hN := lt_256 t
  obtain ⟨e0, e1, -, -, -, -⟩ := index_facts t
  rw [tot_of_lt _ (by omega) (by omega)]
  unfold iblk
  rw [View.read_apply]
  show V m c main_v0 _ = _
  rw [entry_act]
  refine congrArg _ (funext fun a => Fin.ext ?_)
  match a with
  | ⟨0, _⟩ => show win0_0.index t (0 : Fin 2) * 1024 + 1 * p.val = t.val / 16 / 2 * 1024 + p.val; rw [e0]; omega
  | ⟨1, _⟩ => show win0_0.index t (1 : Fin 2) * 256 + 1 * k.val = t.val % 16 * 256 + k.val; rw [e1]; omega

/-- Element `(q, k)` of the weight block at point `t`. -/
theorem wgt_block (c : Dev nD) (t : Fin cfg0.N) (q : Fin 2048) (k : Fin 256) :
    (iblk m c 1 t : Vec Ideal S2048x256 .bf16) (ix2 q k)
      = tot (R := 4096) (C := 4096) (masked (m ((c : Thread nD τ).loc main_arg1)) (m ((c : Thread nD τ).loc main_arg2)))
          (t.val / 16 % 2 * 2048 + q.val) (t.val % 16 * 256 + k.val) := by
  have hN := lt_256 t
  obtain ⟨-, -, e0, e1, -, -⟩ := index_facts t
  rw [tot_of_lt _ (by omega) (by omega)]
  unfold iblk
  rw [View.read_apply]
  show V m c main_v2 _ = _
  rw [entry_wgt]
  refine congrArg _ (funext fun a => Fin.ext ?_)
  match a with
  | ⟨0, _⟩ => show win0_1.index t (0 : Fin 2) * 2048 + 1 * q.val = t.val / 16 % 2 * 2048 + q.val; rw [e0]; omega
  | ⟨1, _⟩ => show win0_1.index t (1 : Fin 2) * 256 + 1 * k.val = t.val % 16 * 256 + k.val; rw [e1]; omega

end Cert.KernelIdeal.Blocks

end
-- ==== Proof.Accumulator.lean ====
/-
  What the accumulator holds after each grid point.

  Within a group of sixteen consecutive points (one output block, the input-feature tile `k` running from 0 to 15)
  the accumulator is reset at `k = 0` and at every point gains that point's ADDEND: at row `p` and column `q` the dot
  product, over the point's 256 input features, of row `p` of its activation block with row `q` of its weight block.
  So after the point at position `k` of its group the accumulator holds, entry by entry, `0` plus the sum of the
  addends of the group's points `0 … k` — an induction along the group, never an enumeration of the grid — and after
  the group's last point, where `k = 15`, the sum over all sixteen tiles of the partial dot products of one row of the
  activations with one row of the masked weight.
-/
import proofs.«156600_j44341242364406_2_alg».proof.Proof.Gen.KernelIdeal.Value
import proofs.«156600_j44341242364406_2_alg».proof.Proof.CasePieces
import proofs.«156600_j44341242364406_2_alg».proof.Proof.TileStep
import proofs.«156600_j44341242364406_2_alg».proof.Proof.Blocks

noncomputable section

open scoped BigOperators

namespace Cert.KernelIdeal.Accumulator

open Cert.KernelIdeal Cert.KernelIdeal.Gen Cert.MaskedLinear
open Idealize.ShloMosaic Idealize.ShloMosaic.TcCoe Idealize.SL.Sem Idealize.ShloMosaic.ValueIdx

variable (m : (ℓ : Loc nD τ sig) → Buf (Elt Ideal) ℓ)

/-- What point `n` leaves in the accumulator over what it held: the step of the point's two blocks, from the zero
    block at the first point of a group and from what the accumulator held at every other point. -/
theorem step_eq (c : Dev nD) (n : ℕ) (hb : n < cfg0.N) (acc : Vec Ideal S1024x2048 .f32) :
    Value.scAt0_0 m c n hb acc
      = k0_pay2 (F := Ideal) (iblk m c 0 (⟨n, hb⟩ : Fin cfg0.N)) (iblk m c 1 (⟨n, hb⟩ : Fin cfg0.N)) (if n % 16 = 0 then k0_pay1 (F := Ideal) else acc) := by
  unfold Value.scAt0_0
  by_cases h0 : n % 16 = 0
  · have h1 : ¬n % 16 = 15 := by omega
    rw [dif_pos h0, dif_neg h1, if_pos h0]
    exact CasePieces.scratch_first c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N))
  · rw [dif_neg h0, if_neg h0]
    by_cases h1 : n % 16 = 15
    · rw [dif_pos h1]
      exact CasePieces.scratch_last c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) acc
    · rw [dif_neg h1]
      exact CasePieces.scratch_middle c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) acc

/-- Point `n`'s addend at an entry of the accumulator: the dot product of the entry's row of the activation block with
    the entry's row of the weight block (zero past the grid, where it is never used). -/
def addend (c : Dev nD) (n : ℕ) (i : S1024x2048.Idx) : EReal :=
  if h : n < cfg0.N then TileStep.blockDot (iblk m c 0 (⟨n, h⟩ : Fin cfg0.N)) (iblk m c 1 (⟨n, h⟩ : Fin cfg0.N)) i else 0

/-- The step at an entry: the point's addend on top of zero (first point of a group) or of what was there. -/
theorem step_apply (c : Dev nD) (n : ℕ) (hb : n < cfg0.N) (acc : Vec Ideal S1024x2048 .f32) (i : S1024x2048.Idx) :
    Value.scAt0_0 m c n hb acc i = (if n % 16 = 0 then 0 else acc i) + addend m c n i := by
  rw [step_eq]
  refine (TileStep.step_at (iblk m c 0 (⟨n, hb⟩ : Fin cfg0.N)) (iblk m c 1 (⟨n, hb⟩ : Fin cfg0.N)) _ i).trans ?_
  unfold addend
  rw [dif_pos hb]
  by_cases h0 : n % 16 = 0
  · rw [if_pos h0, if_pos h0, TileStep.reset_apply]
  · rw [if_neg h0, if_neg h0]

/-- AFTER ANY POINT `t` the accumulator holds zero plus the addends of its group's points up to `t`. -/
theorem after_point (c : Dev nD) (t : Fin cfg0.N) (i : S1024x2048.Idx) :
    (outsAt0 m c t.val t.isLt).2 i = 0 + ∑ s ∈ Finset.range (t.val % 16 + 1), addend m c (16 * (t.val / 16) + s) i := by
  rw [Value.soutsAt0_0_eq]
  exact Pipeline.accAt_add_apply (fun n h => Value.scAt0_0 m c n h (VS0_0.read (Elt Ideal) VS0_0.junk)) (Value.scAt0_0 m c)
    (fun _ => 0) (addend m c) (16 * (t.val / 16)) 15
    (fun h i => by rw [step_apply, if_pos (by omega)])
    (fun n h acc i hlo hhi => by rw [step_apply, if_neg (by omega)])
    (t.val % 16) (by omega) _ i

/-- A point's addend in terms of the argument arrays. -/
theorem addend_apply (c : Dev nD) (n : ℕ) (hn : n < 256) (p : Fin 1024) (q : Fin 2048) :
    addend m c n (ix2 p q)
      = ∑ k : Fin 256, tot (R := 8192) (C := 4096) (m ((c : Thread nD τ).loc main_arg0)) (n / 16 / 2 * 1024 + p.val) (n % 16 * 256 + k.val)
          * tot (R := 4096) (C := 4096) (masked (m ((c : Thread nD τ).loc main_arg1)) (m ((c : Thread nD τ).loc main_arg2))) (n / 16 % 2 * 2048 + q.val) (n % 16 * 256 + k.val) := by
  have hb : n < cfg0.N := lt_of_lt_of_eq hn (show cfg0.N = 256 from N_0).symm
  unfold addend
  rw [dif_pos hb]
  unfold TileStep.blockDot
  exact Finset.sum_congr rfl fun k _ =>
    congrArg₂ (· * ·) (Blocks.act_block m c (⟨n, hb⟩ : Fin cfg0.N) p k) (Blocks.wgt_block m c (⟨n, hb⟩ : Fin cfg0.N) q k)

/-- AFTER THE LAST POINT OF A GROUP the accumulator holds, at `(p, q)`, the sixteen tiles' partial dot products of the
    group's activation row with the group's masked-weight row, added up. -/
theorem after_group (c : Dev nD) (t : Fin cfg0.N) (h15 : t.val % 16 = 15) (p : Fin 1024) (q : Fin 2048) :
    (outsAt0 m c t.val t.isLt).2 (ix2 p q)
      = ∑ s ∈ Finset.range 16, ∑ k : Fin 256,
          tot (R := 8192) (C := 4096) (m ((c : Thread nD τ).loc main_arg0)) (t.val / 16 / 2 * 1024 + p.val) (s * 256 + k.val)
            * tot (R := 4096) (C := 4096) (masked (m ((c : Thread nD τ).loc main_arg1)) (m ((c : Thread nD τ).loc main_arg2))) (t.val / 16 % 2 * 2048 + q.val) (s * 256 + k.val) := by
  have hN := Blocks.lt_256 t
  rw [after_point, zero_add, show t.val % 16 + 1 = 16 from by omega]
  refine Finset.sum_congr rfl fun s hs => ?_
  have hs' : s < 16 := Finset.mem_range.mp hs
  rw [addend_apply m c (16 * (t.val / 16) + s) (by omega) p q]
  have e1 : (16 * (t.val / 16) + s) / 16 = t.val / 16 := by omega
  have e2 : (16 * (t.val / 16) + s) % 16 = s := by omega
  rw [e1, e2]

end Cert.KernelIdeal.Accumulator

end
-- ==== Proof.KernelValue.lean ====
/-
  The kernel's result array, at the ideal values, is the masked linear layer of its argument arrays.

  The output is written back once per group of sixteen grid points, at the group's last point, and what is written is
  the accumulator's contents there: at entry `(p, q)` of the group's output block the sixteen tiles' partial dot
  products, which add up to the layer's output at row `1024·mi + p` and column `2048·ni + q` — the array position the
  block's entry `(p, q)` occupies. The sixteen groups' blocks tile the output array, so after the run every entry of
  it holds the layer's output.
-/
import proofs.«156600_j44341242364406_2_alg».proof.Proof.Accumulator

noncomputable section

open scoped BigOperators

namespace Cert.KernelIdeal.KernelValue

open Cert.KernelIdeal Cert.KernelIdeal.Gen Cert.MaskedLinear
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The layer's output of the argument arrays as launched. -/
abbrev result (c : Dev nD) : Buf (Elt Ideal) ((c : Thread nD τ).loc main_v3) :=
  maskedLinear (m ((c : Thread nD τ).loc main_arg0)) (m ((c : Thread nD τ).loc main_arg1)) (m ((c : Thread nD τ).loc main_arg2))

/-- At the last point of a group the output block is stored with what the accumulator holds. -/
theorem out_eq_acc (c : Dev nD) (t : Fin cfg0.N) (h0 : ¬t.val % 16 = 0) (h15 : t.val % 16 = 15) :
    (outsAt0 m c t.val t.isLt).1 = (outsAt0 m c t.val t.isLt).2 := by
  rw [outsAt0_C m c t h0 h15]
  dsimp only
  exact (CasePieces.out_last (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h15) (iblk m c 0 t) (iblk m c 1 t) (outsAt0 m c (t.val - 1) (Nat.lt_of_le_of_lt (Nat.sub_le _ _) t.isLt)).2).trans
    (CasePieces.scratch_last (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h15) (iblk m c 0 t) (iblk m c 1 t) (outsAt0 m c (t.val - 1) (Nat.lt_of_le_of_lt (Nat.sub_le _ _) t.isLt)).2).symm

/-- So a writing point writes back the accumulator, read through the block. -/
theorem flushed_acc (c : Dev nD) (t : Fin cfg0.N) (h0 : ¬t.val % 16 = 0) (h15 : t.val % 16 = 15) :
    (dats m 0 c).flushed 2 t = (cfg0.win 2).cut (grid0.coords t) ((outsAt0 m c t.val t.isLt).2) := by
  rw [Value.flushed2, out_eq_acc m c t h0 h15]

/-- Entry `j` of the output block is entry `j` of the accumulator, -/
theorem entry_in_block (t : Fin cfg0.N) (j : ((cfg0.win 2).xblock (grid0.coords t)).Idx)
    (hj0 : (j 0).val < 1024) (hj1 : (j 1).val < 2048) :
    (cfg0.win 2).xinj (grid0.coords t) j = ix2 (⟨(j 0).val, hj0⟩ : Fin 1024) (⟨(j 1).val, hj1⟩ : Fin 2048) :=
  funext fun a => Fin.ext (by match a with | ⟨0, _⟩ => rfl | ⟨1, _⟩ => rfl)

/-- and sits in the output array at the block's offsets plus `j`. -/
theorem entry_in_array (t : Fin cfg0.N) (j : ((cfg0.win 2).xblock (grid0.coords t)).Idx)
    (h0 : t.val / 16 / 2 * 1024 + (j 0).val < 8192) (h1 : t.val / 16 % 2 * 2048 + (j 1).val < 4096) :
    ((cfg0.win 2).blk t).view.emb j
      = ix2 (⟨t.val / 16 / 2 * 1024 + (j 0).val, h0⟩ : Fin 8192) (⟨t.val / 16 % 2 * 2048 + (j 1).val, h1⟩ : Fin 4096) := by
  obtain ⟨-, -, -, -, e0, e1⟩ := Blocks.index_facts t
  refine funext fun a => Fin.ext ?_
  match a with
  | ⟨0, _⟩ => show win0_2.index t (0 : Fin 2) * 1024 + 1 * (j 0).val = t.val / 16 / 2 * 1024 + (j 0).val; rw [e0]; omega
  | ⟨1, _⟩ => show win0_2.index t (1 : Fin 2) * 2048 + 1 * (j 1).val = t.val / 16 % 2 * 2048 + (j 1).val; rw [e1]; omega

/-- WHAT A WRITING POINT WRITES BACK is its block of the layer's output. -/
theorem flushed_eq (c : Dev nD) (t : Fin cfg0.N) (hf : (cfg0.win 2).flush t = true) :
    (dats m 0 c).flushed 2 t = ((cfg0.win 2).blk t).view.read (Elt Ideal) (result m c) := by
  have h15 : t.val % 16 = 15 := (flush0_2 t).mp hf
  have h0 : ¬t.val % 16 = 0 := by omega
  have hN := Blocks.lt_256 t
  rw [flushed_acc m c t h0 h15]
  funext j
  have hj0 : (j 0).val < 1024 := (j 0).isLt
  have hj1 : (j 1).val < 2048 := (j 1).isLt
  show (outsAt0 m c t.val t.isLt).2 ((cfg0.win 2).xinj (grid0.coords t) j) = result m c (((cfg0.win 2).blk t).view.emb j)
  rw [entry_in_block t j hj0 hj1, entry_in_array t j (by omega) (by omega), Accumulator.after_group m c t h15]
  exact tiles_eq_maskedLinear (m ((c : Thread nD τ).loc main_arg0)) (m ((c : Thread nD τ).loc main_arg1)) (m ((c : Thread nD τ).loc main_arg2))
    (⟨t.val / 16 / 2 * 1024 + (j 0).val, by omega⟩ : Fin 8192) (⟨t.val / 16 % 2 * 2048 + (j 1).val, by omega⟩ : Fin 4096)

/-- An index of the output array is in point `t`'s block iff each coordinate is in the block's range on its axis. -/
theorem mem_blk (t : Fin cfg0.N) (i : S8192x4096.Idx) :
    i ∈ ((cfg0.win 2).blk t).view.set ↔ ∀ a : Fin 2, win0_2.index t a * S1024x2048.size a ≤ (i a).val ∧ (i a).val < win0_2.index t a * S1024x2048.size a + S1024x2048.size a := by
  show i ∈ ((View.whole main_v3).slice (win0_2.rect t)).set ↔ _
  rw [View.set_slice_whole, Rect.mem_set_unit]
  exact Iff.rfl

/-- Every entry of the output array lies in the block of a writing point: the last point of the group of its batch
    tile and output-feature tile. -/
theorem cover (i : S8192x4096.Idx) :
    ∃ t : Fin cfg0.N, (cfg0.win 2).flush t = true ∧ i ∈ ((cfg0.win 2).blk t).view.set := by
  have hi0 : (i 0).val < 8192 := (i 0).isLt
  have hi1 : (i 1).val < 4096 := (i 1).isLt
  have hN : cfg0.N = 256 := N_0
  obtain ⟨t, ht⟩ : ∃ t : Fin cfg0.N, t.val = 32 * ((i 0).val / 1024) + 16 * ((i 1).val / 2048) + 15 :=
    ⟨⟨32 * ((i 0).val / 1024) + 16 * ((i 1).val / 2048) + 15, by omega⟩, rfl⟩
  obtain ⟨-, -, -, -, e0, e1⟩ := Blocks.index_facts t
  refine ⟨t, (flush0_2 t).mpr (by omega), ?_⟩
  rw [mem_blk]
  intro a
  match a with
  | ⟨0, _⟩ =>
    show win0_2.index t (0 : Fin 2) * 1024 ≤ (i 0).val ∧ (i 0).val < win0_2.index t (0 : Fin 2) * 1024 + 1024
    rw [e0]; omega
  | ⟨1, _⟩ =>
    show win0_2.index t (1 : Fin 2) * 2048 ≤ (i 1).val ∧ (i 1).val < win0_2.index t (1 : Fin 2) * 2048 + 2048
    rw [e1]; omega

/-- So the result array ends holding the layer's output. -/
theorem final (c : Dev nD) : (dats m 0 c).arrAt 2 cfg0.N = result m c :=
  (dats m 0 c).arrAt_eq_of_cover 2 (result m c) (flushed_eq m c) cover

/-- The kernel's run, read: the result array at the layer's output, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.KernelValue

end
-- ==== Proof.lean ====
/-
  The certificate of a masked linear layer computed by a tiled accumulating kernel against its one-line reference.

  Both programs take activations `x` of shape [8192, 4096], a weight `w` and a mask `mk` of shape [4096, 4096], and
  return the [8192, 4096] array

      out[b, o] = Σ_{i < 4096} x[b, i] · (w[o, i] · mk[o, i]).

  The reference multiplies weight and mask and contracts once over all 4096 input features. The kernel first forms
  the same product (and re-encodes both operands in a narrower float format, which at the ideal values changes
  nothing), then walks a grid of 8 × 2 × 16 points: for each of the 8 × 2 output blocks of 1024 × 2048 entries it
  zeroes an accumulator, adds at each of 16 steps the product of a 1024 × 256 block of activations with a 2048 × 256
  block of masked weight, and writes the accumulator out after the last step. Over the extended reals the sixteen
  partial sums of 256 terms add up to the one sum of 4096 terms, because addition there is associative and
  commutative; no input needs to be finite for that, so the precondition is never opened.

  The modules: MaskedLinear (the layer as one function, and the tiling law), ReferenceValue (the reference's result is
  that function), TileStep (one accumulation step at an entry), CasePieces (what each control case of the body leaves
  in its buffers), Blocks (an input block's entry as an entry of the argument arrays), Accumulator (the accumulator
  after each point), KernelValue (the kernel's result array is that function), and here the five claims.
-/
import proofs.«156600_j44341242364406_2_alg».proof.Defs
import proofs.«156600_j44341242364406_2_alg».proof.Proof.Gen.Kernel
import proofs.«156600_j44341242364406_2_alg».proof.Proof.Gen.Kernel.Skeleton
import proofs.«156600_j44341242364406_2_alg».proof.Proof.Gen.Kernel.Launch
import proofs.«156600_j44341242364406_2_alg».proof.Proof.Gen.Kernel.Points
import proofs.«156600_j44341242364406_2_alg».proof.Proof.Gen.Kernel.Frame
import proofs.«156600_j44341242364406_2_alg».proof.Proof.Gen.KernelIdeal
import proofs.«156600_j44341242364406_2_alg».proof.Proof.Gen.KernelIdeal.Skeleton
import proofs.«156600_j44341242364406_2_alg».proof.Proof.Gen.KernelIdeal.Launch
import proofs.«156600_j44341242364406_2_alg».proof.Proof.Gen.KernelIdeal.Points
import proofs.«156600_j44341242364406_2_alg».proof.Proof.Gen.KernelIdeal.Frame
import proofs.«156600_j44341242364406_2_alg».proof.Proof.Gen.ReferenceIdeal
import proofs.«156600_j44341242364406_2_alg».proof.Proof.Gen.Pre_finite_inputs
import proofs.«156600_j44341242364406_2_alg».proof.Proof.Gen.KernelIdeal.Value
import proofs.«156600_j44341242364406_2_alg».proof.Proof.Gen.ReferenceIdeal.Run
import proofs.«156600_j44341242364406_2_alg».proof.Proof.Gen.ReferenceIdeal.Read
import proofs.«156600_j44341242364406_2_alg».proof.Proof.ReferenceValue
import proofs.«156600_j44341242364406_2_alg».proof.Proof.KernelValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- So does the reference: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- At the ideal values the kernel's result array ends at the layer's function of its arguments, and the reference's
    at the same function of arguments that agree. -/
theorem algebraic : Cert.algebraic_KernelIdeal_ReferenceIdeal := by
  intro m ρ m' ρ' _ hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.ReferenceIdeal.RefValue.reference_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
